-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S12800x64 : Shape := ⟨2, ![12800, 64]⟩
abbrev S12800x1 : Shape := ⟨2, ![12800, 1]⟩
abbrev S12800 : Shape := ⟨1, ![12800]⟩

abbrev nBuf : Space → Nat
  | .hbm => 111
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x64, .f32⟩
  | .hbm, ⟨69, _⟩ => ⟨S1700000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S1x1600000, .i32⟩
  | .hbm, ⟨88, _⟩ => ⟨S1600000, .i32⟩
  | .hbm, ⟨89, _⟩ => ⟨S1x1600000, .i32⟩
  | .hbm, ⟨90, _⟩ => ⟨S1600000, .i32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x64, .f32⟩
  | .hbm, ⟨100, _⟩ => ⟨S_, .i32⟩
  | .hbm, ⟨101, _⟩ => ⟨S1600000, .i32⟩
  | .hbm, ⟨102, _⟩ => ⟨S1600000, .i1⟩
  | .hbm, ⟨103, _⟩ => ⟨S_, .i32⟩
  | .hbm, ⟨104, _⟩ => ⟨S1600000, .i32⟩
  | .hbm, ⟨105, _⟩ => ⟨S1600000, .i32⟩
  | .hbm, ⟨106, _⟩ => ⟨S1600000, .i32⟩
  | .hbm, ⟨107, _⟩ => ⟨S1600000x1, .i32⟩
  | .hbm, ⟨108, _⟩ => ⟨S1600000x64, .f32⟩
  | .hbm, ⟨109, _⟩ => ⟨S1600000x1, .f32⟩
  | .hbm, ⟨110, _⟩ => ⟨S1600000, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S12800x64, .f32⟩
  | .local _ .vmem, ⟨21, _⟩ => ⟨S12800x64, .f32⟩
  | .local _ .vmem, ⟨22, _⟩ => ⟨S12800x64, .f32⟩
  | .local _ .vmem, ⟨23, _⟩ => ⟨S12800x64, .f32⟩
  | .local _ .vmem, ⟨24, _⟩ => ⟨S12800x1, .f32⟩
  | .local _ .vmem, ⟨25, _⟩ => ⟨S12800x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_15 : Ref sig .tc := ⟨.hbm, 100, rfl⟩
abbrev main_v75 : Ref sig .tc := ⟨.hbm, 101, rfl⟩
abbrev main_v76 : Ref sig .tc := ⟨.hbm, 102, rfl⟩
abbrev main_c_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S12800x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S12800x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S12800x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  reduces_S12800x64_S12800 : S12800x64.Reduces [1] S12800
  shapeCasts_S12800_S12800x1 : S12800.ShapeCasts S12800x1
  inb_S12800x1_S12800x1_0_0 : ∀ a, (![0, 0] : Fin 2 → Nat) a + S12800x1.size a ≤ S12800x1.size a
  h_S12800x1 : 0 < S12800x1.numel
  shapeCasts_S1600000x1_S1600000 : S1600000x1.ShapeCasts S1600000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S12800x64.size a ≤ S1600000x64.size a
  hwx4_0 : ∀ i : grid4.Coords, EltTy.bits .f32 = 32 ∨ (Rect.block (s := S1600000x64) S12800x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S12800x64.size a ≤ S1600000x64.size a
  hwx4_1 : ∀ i : grid4.Coords, EltTy.bits .f32 = 32 ∨ (Rect.block (s := S1600000x64) S12800x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S12800x1.size a ≤ S1600000x1.size a
  hwx4_2 : ∀ i : grid4.Coords, EltTy.bits .f32 = 32 ∨ (Rect.block (s := S1600000x1) S12800x1.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S12800x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S12800x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v82) S12800x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S1700000x1, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S1x1600000, .i32⟩
  | .hbm, ⟨93, _⟩ => ⟨S1600000, .i32⟩
  | .hbm, ⟨94, _⟩ => ⟨S1x1600000, .i32⟩
  | .hbm, ⟨95, _⟩ => ⟨S1600000, .i32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x64, .f32⟩
  | .hbm, ⟨105, _⟩ => ⟨S_, .i32⟩
  | .hbm, ⟨106, _⟩ => ⟨S1600000, .i32⟩
  | .hbm, ⟨107, _⟩ => ⟨S1600000, .i1⟩
  | .hbm, ⟨108, _⟩ => ⟨S_, .i32⟩
  | .hbm, ⟨109, _⟩ => ⟨S1600000, .i32⟩
  | .hbm, ⟨110, _⟩ => ⟨S1600000, .i32⟩
  | .hbm, ⟨111, _⟩ => ⟨S1600000, .i32⟩
  | .hbm, ⟨112, _⟩ => ⟨S1600000x1, .i32⟩
  | .hbm, ⟨113, _⟩ => ⟨S1600000x64, .f32⟩
  | .hbm, ⟨114, _⟩ => ⟨S1600000x64, .f32⟩
  | .hbm, ⟨115, _⟩ => ⟨S_, .f32⟩
  | .hbm, ⟨116, _⟩ => ⟨S1600000, .f32⟩
  | .hbm, ⟨117, _⟩ => ⟨S1600000, .f32⟩
  | .hbm, ⟨118, _⟩ => ⟨S1600000, .f32⟩
  | .hbm, ⟨119, _⟩ => ⟨S_, .f32⟩
  | .hbm, ⟨120, _⟩ => ⟨S1600000, .f32⟩
  | .hbm, ⟨121, _⟩ => ⟨S1600000, .f32⟩
  | .hbm, ⟨122, _⟩ => ⟨S_, .f32⟩
  | .hbm, ⟨123, _⟩ => ⟨S1600000, .f32⟩
  | .hbm, ⟨124, _⟩ => ⟨S1600000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_13 : Ref sig .tc := ⟨.hbm, 96, rfl⟩
abbrev main_v71 : Ref sig .tc := ⟨.hbm, 97, rfl⟩
abbrev main_v72 : Ref sig .tc := ⟨.hbm, 98, rfl⟩
abbrev main_c_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_15 : Ref sig .tc := ⟨.hbm, 105, rfl⟩
abbrev main_v78 : Ref sig .tc := ⟨.hbm, 106, rfl⟩
abbrev main_v79 : Ref sig .tc := ⟨.hbm, 107, rfl⟩
abbrev main_c_16 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_cst_19 : Ref sig .tc := ⟨.hbm, 122, rfl⟩
abbrev main_v91 : Ref sig .tc := ⟨.hbm, 123, rfl⟩
abbrev main_v92 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

class Facts : Prop extends Facts₀ where

variable [Facts]
-- ==== Proof.KRun.lean ====
/-
  The idealized kernel's run with its result named: every weakly fair execution of @main terminates, nothing faulting,
  with the result buffer at the contents the last host stretch (the reshape of the decoder's column) leaves, and the
  six argument arrays as launched. The contents are the fold through @main's twelve segments: a host stretch applies its
  operations, a kernel region leaves its output array at what its write-backs fold to and every other buffer as entered.
-/
import proofs.«145329_j24653112279423_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, with the final state read at the result buffer as well as at the arguments: the last thread
    state holds every unscoped buffer at the last boundary's contents, and the result buffer is one of them. -/
theorem run : θ_run defs (onTc (τ := τ) (main (F := F))) ⟨m, fun _ => 0, ρ⟩ (fun r => ∀ c : Dev nD,
      r.2.mem ((c.tc : Thread nD τ).loc main_v83) = W12 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v83 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

end Cert.KernelIdeal.KRun

end
-- ==== Proof.Keep.lean ====
/-
  Buffers that a stretch of @main does not write keep their contents through it: a host stretch writes only its
  operations' result buffers, a kernel region only its output array. Read off the fold of buffer contents through
  @main's segments, for the buffers that later segments read: the six arguments, and the edge weights and the two index
  vectors the opening host stretch computes.
-/
import proofs.«145329_j24653112279423_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that is the result of none of a host stretch's operations reads after the stretch as before it. -/
macro "host_keeps" h:ident : tactic => `(tactic|
  exact StableHlo.after_of_forall_not_mem _ _ (List.forall_iff_forall_mem.mp (by
    simp only [$h:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- No host operation before the first kernel writes the node features. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl

/-- No host operation before the first kernel writes the first weight matrix. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl

/-- Nothing up to the first kernel's exit writes the first bias. -/
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

/-- The first kernel leaves the edge weights as the opening host stretch computed them. -/
theorem W4_v31 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

/-- The first kernel leaves the source indices as the opening host stretch computed them. -/
theorem W4_v3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- The first kernel leaves the target indices as the opening host stretch computed them. -/
theorem W4_v6 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- Nothing up to the second kernel's exit writes the second weight matrix. -/
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keeps hostOps1
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl

/-- Nothing up to the third kernel's exit writes the second bias. -/
theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

/-- Nothing between the opening host stretch and the third kernel's exit writes the edge weights. -/
theorem W7_v31 (c : Dev nD) : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := by host_keeps hostOps1
    _ = W3 m ρ c (Proc.devRef .tc main_v31) := W4_of_ne m ρ c main_v31 (by decide)

/-- Nothing between the opening host stretch and the third kernel's exit writes the source indices. -/
theorem W7_v3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)

/-- Nothing between the opening host stretch and the third kernel's exit writes the target indices. -/
theorem W7_v6 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

/-- Nothing up to the fourth kernel's exit writes the edge list. -/
theorem W9_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := by host_keeps hostOps3
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := by host_keeps hostOps1
    _ = W3 m ρ c (Proc.devRef .tc main_arg1) := W4_of_ne m ρ c main_arg1 (by decide)
    _ = W2 m ρ c (Proc.devRef .tc main_arg1) := by host_keeps hostOps0_2
    _ = W1 m ρ c (Proc.devRef .tc main_arg1) := by host_keeps hostOps0_1
    _ = W0 m ρ c (Proc.devRef .tc main_arg1) := by host_keeps hostOps0
    _ = m ((c : Thread nD τ).loc main_arg1) := rfl

end Cert.KernelIdeal.Keep

end
-- ==== Proof.ChainA.lean ====
/-
  The opening host stretch of the idealized kernel's @main computes, from the edge list alone, the source and target
  index vectors (each edge's endpoint, then every node once for its self loop) and the edge weights (the inverse square
  roots of the two endpoints' degrees, multiplied) — by the same host operations as the reference, so the three buffers
  hold the reference's stages of the edge list. Read in three steps, as @main is cut: the degrees and the index vectors;
  the choice between the inverse square root and zero; the gathers and the product.
-/
import proofs.«145329_j24653112279423_1_alg».proof.Proof.Gen.KernelIdeal.Frame
import proofs.«145329_j24653112279423_1_alg».proof.Proof.Keep
import proofs.«145329_j24653112279423_1_alg».proof.Proof.RefRead
import Idealize.ShloMosaic.Lib.StableHlo.Run

set_option maxRecDepth 16384

noncomputable section

open scoped BigOperators

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP
open Cert.KernelIdeal.Keep

variable (m : (ℓ : Loc nD τ sig) → Buf (Elt Ideal) ℓ) (ρ : Dev nD → PrngReg)

/-- The six argument arrays as launched. -/
abbrev a0 (c : Dev nD) : (⟨S100000x256, .f32⟩ : BufTy).Contents (Elt Ideal) := m ((c : Thread nD τ).loc main_arg0)
abbrev a1 (c : Dev nD) : (⟨S2x1600000, .i32⟩ : BufTy).Contents (Elt Ideal) := m ((c : Thread nD τ).loc main_arg1)
abbrev a2 (c : Dev nD) : (⟨S256x128, .f32⟩ : BufTy).Contents (Elt Ideal) := m ((c : Thread nD τ).loc main_arg2)
abbrev a3 (c : Dev nD) : (⟨S128, .f32⟩ : BufTy).Contents (Elt Ideal) := m ((c : Thread nD τ).loc main_arg3)
abbrev a4 (c : Dev nD) : (⟨S128x64, .f32⟩ : BufTy).Contents (Elt Ideal) := m ((c : Thread nD τ).loc main_arg4)
abbrev a5 (c : Dev nD) : (⟨S64, .f32⟩ : BufTy).Contents (Elt Ideal) := m ((c : Thread nD τ).loc main_arg5)

/-! ## Step one: the index vectors, and the degree compared with zero and its inverse square root -/

theorem s0_v3 (c : Dev nD) : W1 m ρ c (Proc.devRef .tc main_v3) = val_main_v3 (F := Ideal) (a1 m c) := by
  dsimp only [W1, hostOps0]
  after_results_simp
  rfl

theorem s0_v6 (c : Dev nD) : W1 m ρ c (Proc.devRef .tc main_v6) = val_main_v6 (F := Ideal) (a1 m c) := by
  dsimp only [W1, hostOps0]
  after_results_simp
  rfl

theorem s0_v12 (c : Dev nD) : W1 m ρ c (Proc.devRef .tc main_v12) = val_main_v12 (F := Ideal) (a1 m c) := by
  dsimp only [W1, hostOps0]
  after_results_simp
  rfl

theorem s0_v15 (c : Dev nD) : W1 m ρ c (Proc.devRef .tc main_v15) = val_main_v15 (F := Ideal) (a1 m c) := by
  dsimp only [W1, hostOps0]
  after_results_simp
  rfl

theorem s0_cst3 (c : Dev nD) : W1 m ρ c (Proc.devRef .tc main_cst_3) = val_main_cst_3 (F := Ideal) := by
  dsimp only [W1, hostOps0]
  after_results_simp
  rfl

/-! ## Step two: the inverse square root where the degree is positive, zero elsewhere -/

/-- The three operations of the choice, from any contents. -/
theorem choice_eq (V : Valuation τ sig (Elt Ideal)) :
    StableHlo.after hostOps0_1 V (Proc.devRef .tc main_v16)
      = select (V (Proc.devRef .tc main_v12)) (V (Proc.devRef .tc main_v15))
          (broadcastInDim S100000 ![] bcast_S_S100000 (id (V (Proc.devRef .tc main_cst_3)))) := rfl

theorem s1_v16 (c : Dev nD) : W2 m ρ c (Proc.devRef .tc main_v16) = val_main_v16 (F := Ideal) (a1 m c) := by
  refine (choice_eq (W1 m ρ c)).trans ?_
  rw [s0_v12 m ρ c, s0_v15 m ρ c, s0_cst3 m ρ c]
  rfl

theorem s1_v3 (c : Dev nD) : W2 m ρ c (Proc.devRef .tc main_v3) = val_main_v3 (F := Ideal) (a1 m c) :=
  (show W2 m ρ c (Proc.devRef .tc main_v3) = W1 m ρ c (Proc.devRef .tc main_v3) by host_keeps hostOps0_1).trans (s0_v3 m ρ c)

theorem s1_v6 (c : Dev nD) : W2 m ρ c (Proc.devRef .tc main_v6) = val_main_v6 (F := Ideal) (a1 m c) :=
  (show W2 m ρ c (Proc.devRef .tc main_v6) = W1 m ρ c (Proc.devRef .tc main_v6) by host_keeps hostOps0_1).trans (s0_v6 m ρ c)

/-! ## Step three: the two gathers by endpoint and their product -/

/-- The source index vector. -/
theorem k3 (c : Dev nD) : W3 m ρ c (Proc.devRef .tc main_v3) = val_main_v3 (F := Ideal) (a1 m c) :=
  (show W3 m ρ c (Proc.devRef .tc main_v3) = W2 m ρ c (Proc.devRef .tc main_v3) by host_keeps hostOps0_2).trans (s1_v3 m ρ c)

/-- The target index vector. -/
theorem k6 (c : Dev nD) : W3 m ρ c (Proc.devRef .tc main_v6) = val_main_v6 (F := Ideal) (a1 m c) :=
  (show W3 m ρ c (Proc.devRef .tc main_v6) = W2 m ρ c (Proc.devRef .tc main_v6) by host_keeps hostOps0_2).trans (s1_v6 m ρ c)

/-- The edge weights. -/
theorem k31 (c : Dev nD) : W3 m ρ c (Proc.devRef .tc main_v31) = val_main_v31 (F := Ideal) (a1 m c) := by
  have e16 := s1_v16 m ρ c
  have e3 := s1_v3 m ρ c
  have e6 := s1_v6 m ρ c
  dsimp only [W3]
  generalize W2 m ρ c = V at e16 e3 e6 ⊢
  dsimp only [hostOps0_2]
  after_results_simp
  rw [e16, e3, e6]
  rfl

end Cert.KernelIdeal.Chain

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.Payload.lean ====
/-
  The arithmetic of each kernel body at one element, over the extended reals: the two matrix products as sums over the
  contracted axis (the change to bf16 before the product is the identity on extended reals, and the product accumulates
  into zero), the two bias kernels as the entry plus the bias row's entry in that column, and the decoder as the logistic
  of the lane sum of the entrywise product of the two rows.
-/
import proofs.«145329_j24653112279423_1_alg».proof.Proof.Gen.KernelIdeal.Skeleton
import proofs.«145329_j24653112279423_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The first product's dimension numbers are those of a plain 2000×256 by 256×128 product. -/
theorem dot0_eq : dot_S2000x256_S256x128_S2000x128_1_0_0_1_n_n = DotDims.plain 2000 256 128 := rfl
/-- The second product's dimension numbers are those of a plain 2000×128 by 128×64 product. -/
theorem dot2_eq : dot_S2000x128_S128x64_S2000x64_1_0_0_1_n_n = DotDims.plain 2000 128 64 := rfl

/-- Kernel 0 at (p, q): the sum over k of x[p, k] · w[k, q]. -/
theorem pay0 (x0 : FVec Ideal S2000x256 .f32) (x1 : FVec Ideal S256x128 .f32) (p : Fin 2000) (q : Fin 128) :
    k0_pay1 (F := Ideal) x0 x1 (ix2 p q) = ∑ k : Fin 256, x0 (ix2 p k) * x1 (ix2 k q) := by
  unfold k0_pay1
  rw [dot0_eq]
  exact Cert.Bridge.LibMatmul.matmul_zero_apply none (truncf .bf16 x0 bitsLt_bf16_f32) (truncf .bf16 x1 bitsLt_bf16_f32) p q

/-- Kernel 2 at (p, q): the sum over k of h[p, k] · w[k, q]. -/
theorem pay2 (x0 : FVec Ideal S2000x128 .f32) (x1 : FVec Ideal S128x64 .f32) (p : Fin 2000) (q : Fin 64) :
    k2_pay1 (F := Ideal) x0 x1 (ix2 p q) = ∑ k : Fin 128, x0 (ix2 p k) * x1 (ix2 k q) := by
  unfold k2_pay1
  rw [shapeCast_self, dot2_eq]
  exact Cert.Bridge.LibMatmul.matmul_zero_apply none (truncf .bf16 x0 bitsLt_bf16_f32) (truncf .bf16 x1 bitsLt_bf16_f32) p q

/-- A one-row block laid down 2000 rows, read at (p, q), is the row's entry q. -/
theorem row_apply {n : Nat} (x1 : (⟨2, ![1, n]⟩ : Shape).Idx → EReal) (h : (⟨2, ![1, n]⟩ : Shape).Broadcasts ⟨2, ![2000, n]⟩)
    (p : Fin 2000) (q : Fin n) : broadcastTo ⟨2, ![2000, n]⟩ x1 h (ix2 p q) = x1 (ix2 (0 : Fin 1) q) := by
  refine broadcastTo_apply x1 h (ix2 p q) (ix2 (0 : Fin 1) q) ?_
  intro a
  match a with
  | ⟨0, _⟩ => rfl
  | ⟨1, _⟩ =>
    show q.val = if n = 1 then 0 else q.val
    split
    · have := q.isLt; omega
    · rfl

/-- Kernel 1 at (p, q): the larger of agg[p, q] + b[0, q] and the float zero. -/
theorem pay1 (x0 : FVec Ideal S2000x128 .f32) (x1 : FVec Ideal S1x128 .f32) (p : Fin 2000) (q : Fin 128) :
    k1_pay1 (F := Ideal) x0 x1 (ix2 p q) = max (x0 (ix2 p q) + x1 (ix2 (0 : Fin 1) q)) (Ideal.ofBits .f32 0x00000000#32) := by
  unfold k1_pay1
  rw [shapeCast_self, shapeCast_self]
  show max (x0 (ix2 p q) + broadcastTo S2000x128 x1 broadcasts_S1x128_S2000x128 (ix2 p q)) _ = _
  rw [row_apply x1 broadcasts_S1x128_S2000x128 p q]
  rfl

/-- Kernel 3 at (p, q): agg[p, q] + b[0, q]. -/
theorem pay3 (x0 : FVec Ideal S2000x64 .f32) (x1 : FVec Ideal S1x64 .f32) (p : Fin 2000) (q : Fin 64) :
    k3_pay1 (F := Ideal) x0 x1 (ix2 p q) = x0 (ix2 p q) + x1 (ix2 (0 : Fin 1) q) := by
  unfold k3_pay1
  rw [shapeCast_self, shapeCast_self]
  show x0 (ix2 p q) + broadcastTo S2000x64 x1 broadcasts_S1x64_S2000x64 (ix2 p q) = _
  rw [row_apply x1 broadcasts_S1x64_S2000x64 p q]

/-- A vector of n entries cast to an n×1 column, read at (p, 0), is the vector's entry p. -/
theorem column_apply {n : Nat} (v : (⟨1, ![n]⟩ : Shape).Idx → EReal) (h : (⟨1, ![n]⟩ : Shape).ShapeCasts ⟨2, ![n, 1]⟩) (p : Fin n) :
    shapeCast ⟨2, ![n, 1]⟩ v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

/-- Kernel 4 at (p, 0): the logistic of the sum over k of zs[p, k] · zd[p, k]. -/
theorem pay4 (x0 x1 : FVec Ideal S12800x64 .f32) (p : Fin 12800) :
    k4_pay1 (F := Ideal) x0 x1 (ix2 p (0 : Fin 1)) = Ideal.logistic (∑ k : Fin 64, x0 (ix2 p k) * x1 (ix2 p k)) := by
  unfold k4_pay1
  rw [shapeCast_self, shapeCast_self]
  show Ideal.logistic (shapeCast S12800x1 _ shapeCasts_S12800_S12800x1 (ix2 p (0 : Fin 1))) = _
  rw [column_apply _ shapeCasts_S12800_S12800x1 p]
  refine congrArg Ideal.logistic ?_
  refine (Ideal.multiReduction_add_single (mulf x0 x1) 0x00000000#32 reduces_S12800x64_S12800 (.inl rfl) rfl (ix1 p)).trans ?_
  refine Finset.sum_congr rfl fun k _ => ?_
  show x0 _ * x1 _ = _
  have e : reduces_S12800x64_S12800.lift (ix1 p) k = ix2 p k :=
    funext fun a => Fin.ext (by match a with | ⟨0, _⟩ => rfl | ⟨1, _⟩ => rfl)
  rw [e]
  rfl

end Cert.KernelIdeal.Pay

end
-- ==== Proof.Spec.lean ====
/-
  What each of the five kernels computes, as one function of whole arrays of extended reals, index by index: a matrix
  product, a row vector added to every row (with and without the clamp at zero), and the logistic of the inner product
  of corresponding rows of two arrays. The kernels' blocks and the reference's host operations are both read against
  these functions.
-/
import Idealize.ShloMosaic.PureOps.Ideal
import Idealize.ShloMosaic.Lib.ValueIdx

noncomputable section

open scoped BigOperators

namespace Cert.Bridge.Spec

open Idealize.ShloMosaic Idealize.ShloMosaic.ValueIdx

/-- The product of an M×K and a K×N array: entry (p, q) is the sum over k of A[p, k] · B[k, q]. -/
def mm {M K N : Nat} (A : (⟨2, ![M, K]⟩ : Shape).Idx → EReal) (B : (⟨2, ![K, N]⟩ : Shape).Idx → EReal) :
    (⟨2, ![M, N]⟩ : Shape).Idx → EReal :=
  fun i => ∑ k : Fin K, A (ix2 (i 0 : Fin M) k) * B (ix2 k (i 1 : Fin N))

/-- A vector of C entries added to every row of an M×C array. -/
def addRow {M C : Nat} (A : (⟨2, ![M, C]⟩ : Shape).Idx → EReal) (b : (⟨1, ![C]⟩ : Shape).Idx → EReal) :
    (⟨2, ![M, C]⟩ : Shape).Idx → EReal :=
  fun i => A i + b (ix1 (i 1 : Fin C))

/-- The same, then the larger of the entry and the float zero. -/
def addRowRelu {M C : Nat} (A : (⟨2, ![M, C]⟩ : Shape).Idx → EReal) (b : (⟨1, ![C]⟩ : Shape).Idx → EReal) :
    (⟨2, ![M, C]⟩ : Shape).Idx → EReal :=
  fun i => max (A i + b (ix1 (i 1 : Fin C))) (Ideal.ofBits .f32 0x00000000#32)

/-- The bias given as a one-row array: the row added to every row of an M×C array. -/
def addRow1 {M C : Nat} (A : (⟨2, ![M, C]⟩ : Shape).Idx → EReal) (b : (⟨2, ![1, C]⟩ : Shape).Idx → EReal) :
    (⟨2, ![M, C]⟩ : Shape).Idx → EReal :=
  fun i => A i + b (ix2 (0 : Fin 1) (i 1 : Fin C))

/-- The same, then the larger of the entry and the float zero. -/
def addRowRelu1 {M C : Nat} (A : (⟨2, ![M, C]⟩ : Shape).Idx → EReal) (b : (⟨2, ![1, C]⟩ : Shape).Idx → EReal) :
    (⟨2, ![M, C]⟩ : Shape).Idx → EReal :=
  fun i => max (A i + b (ix2 (0 : Fin 1) (i 1 : Fin C))) (Ideal.ofBits .f32 0x00000000#32)

/-- A one-row array that holds a vector's entries gives the same sums as the vector. -/
theorem addRow1_eq {M C : Nat} (A : (⟨2, ![M, C]⟩ : Shape).Idx → EReal) (b2 : (⟨2, ![1, C]⟩ : Shape).Idx → EReal)
    (b1 : (⟨1, ![C]⟩ : Shape).Idx → EReal) (h : ∀ q : Fin C, b2 (ix2 (0 : Fin 1) q) = b1 (ix1 q)) : addRow1 A b2 = addRow A b1 :=
  funext fun i => congrArg (fun z => A i + z) (h (i 1 : Fin C))

theorem addRowRelu1_eq {M C : Nat} (A : (⟨2, ![M, C]⟩ : Shape).Idx → EReal) (b2 : (⟨2, ![1, C]⟩ : Shape).Idx → EReal)
    (b1 : (⟨1, ![C]⟩ : Shape).Idx → EReal) (h : ∀ q : Fin C, b2 (ix2 (0 : Fin 1) q) = b1 (ix1 q)) : addRowRelu1 A b2 = addRowRelu A b1 :=
  funext fun i => congrArg (fun z => max (A i + z) (Ideal.ofBits .f32 0x00000000#32)) (h (i 1 : Fin C))

/-- Row by row, the logistic of the inner product of row e of `zs` with row e of `zd`. -/
def decode {E C : Nat} (zs zd : (⟨2, ![E, C]⟩ : Shape).Idx → EReal) : (⟨1, ![E]⟩ : Shape).Idx → EReal :=
  fun i => Ideal.logistic (∑ k : Fin C, zs (ix2 (i 0 : Fin E) k) * zd (ix2 (i 0 : Fin E) k))

end Cert.Bridge.Spec

end
-- ==== Proof.Region0.lean ====
/-
  Kernel region 0 (a matrix product, one block of 2000 rows per grid point): whatever the buffers hold when the region is
  entered, the output array ends holding the product of the two input arrays. Point t writes back rows
  2000·t … 2000·t + 1999, computed from the same rows of the left operand and the whole right operand; the 50 blocks tile
  the 100000 rows.
-/
import proofs.«145329_j24653112279423_1_alg».proof.Proof.Gen.KernelIdeal.Frame
import proofs.«145329_j24653112279423_1_alg».proof.Proof.Payload
import proofs.«145329_j24653112279423_1_alg».proof.Proof.Spec
import Idealize.ShloMosaic.Lib.Pipeline.Value

set_option maxRecDepth 16384

noncomputable section

open scoped BigOperators

namespace Cert.KernelIdeal.Reg0

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at point t: the left operand's and the output's block is row block t, the right operand's is the
    whole array. Decided over the grid. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, at (p, k), is the array's entry (2000·t + p, k). -/
theorem lhs_apply (c : Dev nD) (t : Fin cfg0.N) (p : Fin 2000) (k : Fin 256) (r : Fin 100000) (hr : r.val = t.val * 2000 + p.val) :
    (iblk0 V c 0 t : FVec Ideal S2000x256 .f32) (ix2 p k) = (V c main_arg0 : S100000x256.Idx → EReal) (ix2 r k) := by
  obtain ⟨e00, e01, -, -, -, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 256 + 1 * k.val = k.val; omega

/-- The right operand's block at every point is the whole array. -/
theorem rhs_apply (c : Dev nD) (t : Fin cfg0.N) (k : Fin 256) (q : Fin 128) :
    (iblk0 V c 1 t : FVec Ideal S256x128 .f32) (ix2 k q) = (V c main_arg2 : S256x128.Idx → EReal) (ix2 k q) := by
  obtain ⟨-, -, e10, e11, -, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

/-- What point t writes back is block t of the product of the two arrays. -/
theorem flushed_eq (c : Dev nD) (t : Fin cfg0.N) :
    (dat0 V c).flushed 2 t = ((cfg0.win 2).blk t).view.read (Elt Ideal) (Spec.mm (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  obtain ⟨-, -, -, -, e20, e21⟩ := idx_facts t
  refine funext fun (j : S2000x128.Idx) => ?_
  obtain ⟨p, q, rfl⟩ : ∃ (p : Fin 2000) (q : Fin 128), j = ix2 p q := ⟨j 0, j 1, eq_ix2 j⟩
  show k0_pay1 (iblk0 V c 0 t) (iblk0 V c 1 t) (ix2 p q)
    = Spec.mm (V c main_arg0) (V c main_arg2) (((cfg0.win 2).blk t).view.emb (ix2 p q))
  refine (Pay.pay0 (iblk0 V c 0 t) (iblk0 V c 1 t) p q).trans ?_
  unfold Spec.mm
  refine Finset.sum_congr rfl fun k _ => ?_
  have hr : ((((cfg0.win 2).blk t).view.emb (ix2 p q)) 0).val = t.val * 2000 + p.val := by
    show win0_2.index t (0 : Fin 2) * 2000 + 1 * p.val = _; omega
  have hq : ((((cfg0.win 2).blk t).view.emb (ix2 p q)) 1) = q := Fin.ext (by
    show win0_2.index t (1 : Fin 2) * 128 + 1 * q.val = q.val; omega)
  rw [lhs_apply V c t p k _ hr, rhs_apply V c t k q, hq]

/-- An index of the output array is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Row r of the output array is in the block of point r / 2000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, e20, e21⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e21]; omega

/-- The output array after the region: the product of the two input arrays as the region found them. -/
theorem final (c : Dev nD) : (dat0 V c).arrAt 2 cfg0.N = Spec.mm (V c main_arg0) (V c main_arg2) :=
  (dat0 V c).arrAt_eq_of_cover 2 (Spec.mm (V c main_arg0) (V c main_arg2)) (fun t _ => flushed_eq V c t) cover

end Cert.KernelIdeal.Reg0

end
-- ==== Proof.Region1.lean ====
/-
  Kernel region 1 (the bias added and the clamp at zero, one block of 2000 rows per grid point): whatever the buffers hold when the region is entered,
  the output array ends holding, at (r, q), the larger of the input's entry plus the bias row's entry q and the float zero.
  Point t writes back rows 2000·t … 2000·t + 1999, computed from the same rows of the input and the one bias row; the 50
  blocks tile the 100000 rows.
-/
import proofs.«145329_j24653112279423_1_alg».proof.Proof.Gen.KernelIdeal.Frame
import proofs.«145329_j24653112279423_1_alg».proof.Proof.Payload
import proofs.«145329_j24653112279423_1_alg».proof.Proof.Spec
import Idealize.ShloMosaic.Lib.Pipeline.Value

set_option maxRecDepth 16384

noncomputable section

open scoped BigOperators

namespace Cert.KernelIdeal.Reg1

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at point t: the input's and the output's block is row block t, the bias row's is the whole row.
    Decided over the grid. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input's block at point t, at (p, q), is the array's entry under the output block's (p, q). -/
theorem in_apply (c : Dev nD) (t : Fin cfg1.N) (p : Fin 2000) (q : Fin 128) :
    (iblk1 V c 0 t : FVec Ideal S2000x128 .f32) (ix2 p q)
      = (V c main_v45 : S100000x128.Idx → EReal) (((cfg1.win 2).blk t).view.emb (ix2 p q)) := by
  obtain ⟨e00, e01, -, -, e20, e21⟩ := idx_facts t
  unfold iblk1
  rw [View.read_apply]
  show V c main_v45 _ = V c main_v45 _
  refine congrArg (V c main_v45) (funext fun a => Fin.ext ?_)
  match a with
  | ⟨0, _⟩ => show win1_0.index t (0 : Fin 2) * 2000 + 1 * p.val = win1_2.index t (0 : Fin 2) * 2000 + 1 * p.val; omega
  | ⟨1, _⟩ => show win1_0.index t (1 : Fin 2) * 128 + 1 * q.val = win1_2.index t (1 : Fin 2) * 128 + 1 * q.val; omega

/-- The bias row's block at every point is the whole row. -/
theorem row_apply (c : Dev nD) (t : Fin cfg1.N) (q : Fin 128) :
    (iblk1 V c 1 t : FVec Ideal S1x128 .f32) (ix2 (0 : Fin 1) q) = (V c main_v46 : S1x128.Idx → EReal) (ix2 (0 : Fin 1) q) := by
  obtain ⟨-, -, e10, e11, -, -⟩ := idx_facts t
  unfold iblk1
  rw [View.read_apply]
  show V c main_v46 _ = V c main_v46 _
  refine congrArg (V c main_v46) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- What point t writes back is block t of the bias sum of the two arrays. -/
theorem flushed_eq (c : Dev nD) (t : Fin cfg1.N) :
    (dat1 V c).flushed 2 t = ((cfg1.win 2).blk t).view.read (Elt Ideal) (Spec.addRowRelu1 (V c main_v45) (V c main_v46)) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  obtain ⟨-, -, -, -, e20, e21⟩ := idx_facts t
  refine funext fun (j : S2000x128.Idx) => ?_
  obtain ⟨p, q, rfl⟩ : ∃ (p : Fin 2000) (q : Fin 128), j = ix2 p q := ⟨j 0, j 1, eq_ix2 j⟩
  show k1_pay1 (iblk1 V c 0 t) (iblk1 V c 1 t) (ix2 p q)
    = Spec.addRowRelu1 (V c main_v45) (V c main_v46) (((cfg1.win 2).blk t).view.emb (ix2 p q))
  refine (Pay.pay1 (iblk1 V c 0 t) (iblk1 V c 1 t) p q).trans ?_
  unfold Spec.addRowRelu1
  have hq : ((((cfg1.win 2).blk t).view.emb (ix2 p q)) 1) = q := Fin.ext (by
    show win1_2.index t (1 : Fin 2) * 128 + 1 * q.val = q.val; omega)
  rw [in_apply V c t p q, row_apply V c t q, hq]

/-- An index of the output array is in point t's block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- Row r of the output array is in the block of point r / 2000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, e20, e21⟩ := idx_facts ⟨(i 0).val / 2000, ht⟩
  refine ⟨⟨(i 0).val / 2000, ht⟩, flush1_2 _, ?_⟩
  rw [mem_blk]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win1_2.index ⟨(i 0).val / 2000, ht⟩ (1 : Fin 2) * 128 ≤ (i 1).val ∧ (i 1).val < win1_2.index ⟨(i 0).val / 2000, ht⟩ (1 : Fin 2) * 128 + 128
    rw [e21]; omega

/-- The output array after the region. -/
theorem final (c : Dev nD) : (dat1 V c).arrAt 2 cfg1.N = Spec.addRowRelu1 (V c main_v45) (V c main_v46) :=
  (dat1 V c).arrAt_eq_of_cover 2 (Spec.addRowRelu1 (V c main_v45) (V c main_v46)) (fun t _ => flushed_eq V c t) cover

end Cert.KernelIdeal.Reg1

end
-- ==== Proof.RefSide.lean ====
/-
  The reference's stages against the whole-array functions: its two dot_general stages are the matrix products, its
  add of the broadcast bias (then the maximum with the zero splat) the row sums, and its last eight stages — multiply,
  sum over the feature axis from a zero initial value, negate, exponential, one plus, one over — the logistic of the
  inner product of corresponding rows (on the extended reals the logistic IS one over one plus the exponential of the
  negation, at the infinities too, and the float words for zero and one are the numbers).
-/
import proofs.«145329_j24653112279423_1_alg».proof.Proof.RefRead
import proofs.«145329_j24653112279423_1_alg».proof.Proof.Spec
import Idealize.ShloMosaic.Lib.IdealHost

noncomputable section

open scoped BigOperators

namespace Cert.ReferenceIdeal.Side

open Cert.ReferenceIdeal Cert.ReferenceIdeal.ReadP Cert.Bridge
open Idealize.ShloMosaic Idealize.ShloMosaic.ValueIdx

variable (x0 : (⟨S100000x256, .f32⟩ : BufTy).Contents (Elt Ideal)) (x1 : (⟨S2x1600000, .i32⟩ : BufTy).Contents (Elt Ideal))
  (x2 : (⟨S256x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The first linear layer: x · W1. -/
theorem v32_eq : val_main_v32 (F := Ideal) x0 x2 = Spec.mm x0 x2 := by
  funext i
  rw [val_main_v32_apply]
  unfold Spec.mm
  refine Finset.sum_congr rfl fun k _ => ?_
  have el : lidx_main_v32 i k = ix2 (i 0 : Fin 100000) k := funext fun a => Fin.ext (by match a with | ⟨0, _⟩ => rfl | ⟨1, _⟩ => rfl)
  have er : ridx_main_v32 i k = ix2 k (i 1 : Fin 128) := funext fun a => Fin.ext (by match a with | ⟨0, _⟩ => rfl | ⟨1, _⟩ => rfl)
  rw [el, er]
  rfl

/-- The first layer's output: the aggregate plus the bias, clamped at zero. -/
theorem v49_eq : val_main_v49 (F := Ideal) x0 x1 x2 x3 = Spec.addRowRelu (val_main_v45 (F := Ideal) x0 x1 x2) x3 := by
  funext i
  rw [val_main_v49_apply, val_main_v48_apply, val_main_v47_apply, val_main_v46_apply, val_main_call1_v0_apply, val_main_call1_cst_apply]
  unfold Spec.addRowRelu
  generalize val_main_v45 (F := Ideal) x0 x1 x2 = y
  have e : idx_main_v46 (idx_main_v47 i) = ix1 (i 1 : Fin 128) := funext fun a => Fin.ext (by match a with | ⟨0, _⟩ => rfl)
  rw [e]
  rfl

/-- The second linear layer: h · W2. -/
theorem v50_eq : val_main_v50 (F := Ideal) x0 x1 x2 x3 x4 = Spec.mm (val_main_v49 (F := Ideal) x0 x1 x2 x3) x4 := by
  funext i
  rw [val_main_v50_apply]
  unfold Spec.mm
  generalize val_main_v49 (F := Ideal) x0 x1 x2 x3 = y
  refine Finset.sum_congr rfl fun k _ => ?_
  have el : lidx_main_v50 i k = ix2 (i 0 : Fin 100000) k := funext fun a => Fin.ext (by match a with | ⟨0, _⟩ => rfl | ⟨1, _⟩ => rfl)
  have er : ridx_main_v50 i k = ix2 k (i 1 : Fin 64) := funext fun a => Fin.ext (by match a with | ⟨0, _⟩ => rfl | ⟨1, _⟩ => rfl)
  rw [el, er]
  rfl

/-- The second layer's output: the aggregate plus the bias. -/
theorem v66_eq : val_main_v66 (F := Ideal) x0 x1 x2 x3 x4 x5 = Spec.addRow (val_main_v63 (F := Ideal) x0 x1 x2 x3 x4) x5 := by
  funext i
  rw [val_main_v66_apply, val_main_v65_apply, val_main_v64_apply]
  unfold Spec.addRow
  generalize val_main_v63 (F := Ideal) x0 x1 x2 x3 x4 = y
  have e : idx_main_v64 (idx_main_v65 i) = ix1 (i 1 : Fin 64) := funext fun a => Fin.ext (by match a with | ⟨0, _⟩ => rfl)
  rw [e]
  rfl

/-- The sum over the feature axis of the entrywise product of the two gathered arrays. -/
theorem v86_apply (i : S1600000.Idx) : val_main_v86 (F := Ideal) x0 x1 x2 x3 x4 x5 i
    = ∑ k : Fin 64, val_main_v77 (F := Ideal) x0 x1 x2 x3 x4 x5 (ix2 (i 0 : Fin 1600000) k) * val_main_v84 (F := Ideal) x0 x1 x2 x3 x4 x5 (ix2 (i 0 : Fin 1600000) k) := by
  refine (val_main_v86_apply x0 x1 x2 x3 x4 x5 i).trans ?_
  rw [val_main_cst_17_apply, Ideal.ofBits_def, Ideal.ofBits_zero_f32, zero_add]
  refine Finset.sum_congr rfl fun k _ => ?_
  have e : idx_main_v86 i k = ix2 (i 0 : Fin 1600000) k := funext fun a => Fin.ext (by match a with | ⟨0, _⟩ => rfl | ⟨1, _⟩ => rfl)
  rw [e]
  exact val_main_v85_apply x0 x1 x2 x3 x4 x5 (ix2 (i 0 : Fin 1600000) k)

/-- The decoder: the logistic of that sum. -/
theorem v92_eq : val_main_v92 (F := Ideal) x0 x1 x2 x3 x4 x5
    = Spec.decode (val_main_v77 (F := Ideal) x0 x1 x2 x3 x4 x5) (val_main_v84 (F := Ideal) x0 x1 x2 x3 x4 x5) := by
  funext i
  unfold Spec.decode Ideal.logistic
  rw [← v86_apply x0 x1 x2 x3 x4 x5 i]
  rw [val_main_v92_apply, val_main_v91_apply, val_main_cst_19_apply, val_main_v90_apply, val_main_v89_apply, val_main_cst_18_apply,
    val_main_v88_apply, val_main_v87_apply]
  generalize val_main_v86 (F := Ideal) x0 x1 x2 x3 x4 x5 i = s
  show Ideal.div (Ideal.ofBits .f32 0x3F800000#32) (Ideal.ofBits .f32 0x3F800000#32 + Ideal.exp (-s)) = Ideal.div 1 (1 + Ideal.exp (-s))
  rw [Ideal.ofBits_one_f32]

end Cert.ReferenceIdeal.Side

end
-- ==== Proof.ChainB.lean ====
/-
  Layer one. The first kernel's output array is the product x · W1 (its blocks tile the rows); the host stretch after
  it gathers the product's rows by source, scales each by its edge weight and adds them up by target — the reference's
  operations on equal operands —; the second kernel adds the bias row and clamps at zero. So the second kernel's output
  array is the reference's first layer.
-/
import proofs.«145329_j24653112279423_1_alg».proof.Proof.ChainA
import proofs.«145329_j24653112279423_1_alg».proof.Proof.Keep
import proofs.«145329_j24653112279423_1_alg».proof.Proof.Region0
import proofs.«145329_j24653112279423_1_alg».proof.Proof.Region1
import proofs.«145329_j24653112279423_1_alg».proof.Proof.RefSide
import proofs.«145329_j24653112279423_1_alg».proof.Proof.Spec
import Idealize.ShloMosaic.Lib.ValueLayout

set_option maxRecDepth 16384

noncomputable section

open scoped BigOperators

namespace Cert.KernelIdeal.Chain

open Cert.KernelIdeal Cert.KernelIdeal.Gen Cert.Bridge
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg)

/-! ## Layer one -/

/-- The first kernel's output array is x · W1. -/
theorem k32 (c : Dev nD) : W4 m ρ c (Proc.devRef .tc main_v32) = val_main_v32 (F := Ideal) (a0 m c) (a2 m c) := by
  refine (W4_arr m ρ c 2).trans ?_
  refine (Reg0.final (V3 m ρ) c).trans ?_
  rw [Cert.ReferenceIdeal.Side.v32_eq]
  exact congrArg₂ Spec.mm (Keep.W3_arg0 m ρ c) (Keep.W3_arg2 m ρ c)

/-- The host stretch after it gathers the rows by source, scales them by the edge weight and adds them up by target. -/
theorem k45 (c : Dev nD) : W5 m ρ c (Proc.devRef .tc main_v45) = val_main_v45 (F := Ideal) (a0 m c) (a1 m c) (a2 m c) := by
  dsimp only [W5, hostOps1]
  after_results_simp
  rw [k32 m ρ c, Keep.W4_v31 m ρ c, Keep.W4_v3 m ρ c, Keep.W4_v6 m ρ c, k31 m ρ c, k3 m ρ c, k6 m ρ c]
  rfl

/-- The bias, cast to one row. -/
theorem k46 (c : Dev nD) : W5 m ρ c (Proc.devRef .tc main_v46) = shapeCast S1x128 (a3 m c) shapeCasts_S128_S1x128 := by
  dsimp only [W5, hostOps1]
  after_results_simp
  rw [Keep.W4_arg3 m ρ c]
  rfl

/-- The second kernel's output array is the first layer's output. -/
theorem k47 (c : Dev nD) : W6 m ρ c (Proc.devRef .tc main_v47) = val_main_v49 (F := Ideal) (a0 m c) (a1 m c) (a2 m c) (a3 m c) := by
  refine (W6_arr m ρ c 2).trans ?_
  refine (Reg1.final (V5 m ρ) c).trans ?_
  rw [Cert.ReferenceIdeal.Side.v49_eq]
  show Spec.addRowRelu1 (W5 m ρ c (Proc.devRef .tc main_v45)) (W5 m ρ c (Proc.devRef .tc main_v46)) = _
  rw [k45 m ρ c, k46 m ρ c]
  exact Spec.addRowRelu1_eq _ _ _ fun q => shapeCast_a_1a_apply (a3 m c) shapeCasts_S128_S1x128 (0 : Fin 1) q

end Cert.KernelIdeal.Chain

end
-- ==== Proof.Region2.lean ====
/-
  Kernel region 2 (a matrix product, one block of 2000 rows per grid point): whatever the buffers hold when the region is
  entered, the output array ends holding the product of the two input arrays. Point t writes back rows
  2000·t … 2000·t + 1999, computed from the same rows of the left operand and the whole right operand; the 50 blocks tile
  the 100000 rows.
-/
import proofs.«145329_j24653112279423_1_alg».proof.Proof.Gen.KernelIdeal.Frame
import proofs.«145329_j24653112279423_1_alg».proof.Proof.Payload
import proofs.«145329_j24653112279423_1_alg».proof.Proof.Spec
import Idealize.ShloMosaic.Lib.Pipeline.Value

set_option maxRecDepth 16384

noncomputable section

open scoped BigOperators

namespace Cert.KernelIdeal.Reg2

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at point t: the left operand's and the output's block is row block t, the right operand's is the
    whole array. Decided over the grid. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t, at (p, k), is the array's entry (2000·t + p, k). -/
theorem lhs_apply (c : Dev nD) (t : Fin cfg2.N) (p : Fin 2000) (k : Fin 128) (r : Fin 100000) (hr : r.val = t.val * 2000 + p.val) :
    (iblk2 V c 0 t : FVec Ideal S2000x128 .f32) (ix2 p k) = (V c main_v47 : S100000x128.Idx → EReal) (ix2 r k) := by
  obtain ⟨e00, e01, -, -, -, -⟩ := idx_facts t
  unfold iblk2
  rw [View.read_apply]
  show V c main_v47 _ = V c main_v47 _
  refine congrArg (V c main_v47) (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

/-- The right operand's block at every point is the whole array. -/
theorem rhs_apply (c : Dev nD) (t : Fin cfg2.N) (k : Fin 128) (q : Fin 64) :
    (iblk2 V c 1 t : FVec Ideal S128x64 .f32) (ix2 k q) = (V c main_arg4 : S128x64.Idx → EReal) (ix2 k q) := by
  obtain ⟨-, -, e10, e11, -, -⟩ := idx_facts t
  unfold iblk2
  rw [View.read_apply]
  show V c main_arg4 _ = V c main_arg4 _
  refine congrArg (V c main_arg4) (funext fun a => Fin.ext ?_)
  match a with
  | ⟨0, _⟩ => show win2_1.index t (0 : Fin 2) * 128 + 1 * k.val = k.val; omega
  | ⟨1, _⟩ => show win2_1.index t (1 : Fin 2) * 64 + 1 * q.val = q.val; omega

/-- What point t writes back is block t of the product of the two arrays. -/
theorem flushed_eq (c : Dev nD) (t : Fin cfg2.N) :
    (dat2 V c).flushed 2 t = ((cfg2.win 2).blk t).view.read (Elt Ideal) (Spec.mm (V c main_v47) (V c main_arg4)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  obtain ⟨-, -, -, -, e20, e21⟩ := idx_facts t
  refine funext fun (j : S2000x64.Idx) => ?_
  obtain ⟨p, q, rfl⟩ : ∃ (p : Fin 2000) (q : Fin 64), j = ix2 p q := ⟨j 0, j 1, eq_ix2 j⟩
  show k2_pay1 (iblk2 V c 0 t) (iblk2 V c 1 t) (ix2 p q)
    = Spec.mm (V c main_v47) (V c main_arg4) (((cfg2.win 2).blk t).view.emb (ix2 p q))
  refine (Pay.pay2 (iblk2 V c 0 t) (iblk2 V c 1 t) p q).trans ?_
  unfold Spec.mm
  refine Finset.sum_congr rfl fun k _ => ?_
  have hr : ((((cfg2.win 2).blk t).view.emb (ix2 p q)) 0).val = t.val * 2000 + p.val := by
    show win2_2.index t (0 : Fin 2) * 2000 + 1 * p.val = _; omega
  have hq : ((((cfg2.win 2).blk t).view.emb (ix2 p q)) 1) = q := Fin.ext (by
    show win2_2.index t (1 : Fin 2) * 64 + 1 * q.val = q.val; omega)
  rw [lhs_apply V c t p k _ hr, rhs_apply V c t k q, hq]

/-- An index of the output array is in point t's block iff each coordinate is in the block's range on its axis. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v48).slice (win2_2.rect t)).set ↔ _
  rw [View.set_slice_whole, Rect.mem_set_unit]
  exact Iff.rfl

/-- Row r of the output array is in the block of point r / 2000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  have ht : (i 0).val / 2000 < cfg2.N := by rw [hN]; omega
  obtain ⟨-, -, -, -, e20, e21⟩ := idx_facts ⟨(i 0).val / 2000, ht⟩
  refine ⟨⟨(i 0).val / 2000, ht⟩, flush2_2 _, ?_⟩
  rw [mem_blk]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win2_2.index ⟨(i 0).val / 2000, ht⟩ (1 : Fin 2) * 64 ≤ (i 1).val ∧ (i 1).val < win2_2.index ⟨(i 0).val / 2000, ht⟩ (1 : Fin 2) * 64 + 64
    rw [e21]; omega

/-- The output array after the region: the product of the two input arrays as the region found them. -/
theorem final (c : Dev nD) : (dat2 V c).arrAt 2 cfg2.N = Spec.mm (V c main_v47) (V c main_arg4) :=
  (dat2 V c).arrAt_eq_of_cover 2 (Spec.mm (V c main_v47) (V c main_arg4)) (fun t _ => flushed_eq V c t) cover

end Cert.KernelIdeal.Reg2

end
-- ==== Proof.Region3.lean ====
/-
  Kernel region 3 (the bias added, one block of 2000 rows per grid point): whatever the buffers hold when the region is entered,
  the output array ends holding, at (r, q), the input's entry plus the bias row's entry q.
  Point t writes back rows 2000·t … 2000·t + 1999, computed from the same rows of the input and the one bias row; the 50
  blocks tile the 100000 rows.
-/
import proofs.«145329_j24653112279423_1_alg».proof.Proof.Gen.KernelIdeal.Frame
import proofs.«145329_j24653112279423_1_alg».proof.Proof.Payload
import proofs.«145329_j24653112279423_1_alg».proof.Proof.Spec
import Idealize.ShloMosaic.Lib.Pipeline.Value

set_option maxRecDepth 16384

noncomputable section

open scoped BigOperators

namespace Cert.KernelIdeal.Reg3

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at point t: the input's and the output's block is row block t, the bias row's is the whole row.
    Decided over the grid. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The input's block at point t, at (p, q), is the array's entry under the output block's (p, q). -/
theorem in_apply (c : Dev nD) (t : Fin cfg3.N) (p : Fin 2000) (q : Fin 64) :
    (iblk3 V c 0 t : FVec Ideal S2000x64 .f32) (ix2 p q)
      = (V c main_v61 : S100000x64.Idx → EReal) (((cfg3.win 2).blk t).view.emb (ix2 p q)) := by
  obtain ⟨e00, e01, -, -, e20, e21⟩ := idx_facts t
  unfold iblk3
  rw [View.read_apply]
  show V c main_v61 _ = V c main_v61 _
  refine congrArg (V c main_v61) (funext fun a => Fin.ext ?_)
  match a with
  | ⟨0, _⟩ => show win3_0.index t (0 : Fin 2) * 2000 + 1 * p.val = win3_2.index t (0 : Fin 2) * 2000 + 1 * p.val; omega
  | ⟨1, _⟩ => show win3_0.index t (1 : Fin 2) * 64 + 1 * q.val = win3_2.index t (1 : Fin 2) * 64 + 1 * q.val; omega

/-- The bias row's block at every point is the whole row. -/
theorem row_apply (c : Dev nD) (t : Fin cfg3.N) (q : Fin 64) :
    (iblk3 V c 1 t : FVec Ideal S1x64 .f32) (ix2 (0 : Fin 1) q) = (V c main_v62 : S1x64.Idx → EReal) (ix2 (0 : Fin 1) q) := by
  obtain ⟨-, -, e10, e11, -, -⟩ := idx_facts t
  unfold iblk3
  rw [View.read_apply]
  show V c main_v62 _ = V c main_v62 _
  refine congrArg (V c main_v62) (funext fun a => Fin.ext ?_)
  match a with
  | ⟨0, _⟩ => show win3_1.index t (0 : Fin 2) * 1 + 1 * 0 = 0; omega
  | ⟨1, _⟩ => show win3_1.index t (1 : Fin 2) * 64 + 1 * q.val = q.val; omega

/-- What point t writes back is block t of the bias sum of the two arrays. -/
theorem flushed_eq (c : Dev nD) (t : Fin cfg3.N) :
    (dat3 V c).flushed 2 t = ((cfg3.win 2).blk t).view.read (Elt Ideal) (Spec.addRow1 (V c main_v61) (V c main_v62)) := by
  show (cfg3.win 2).cut (grid3.coords t) ((dat3 V c).after 2 t) = _
  rw [after3_2]
  unfold out3_2
  rw [View.canon_unit_zero hz]
  simp only [View.ld_unit_zero (S := S2000x64) hz, View.ld_unit_zero (S := S1x64) hz]
  obtain ⟨-, -, -, -, e20, e21⟩ := idx_facts t
  refine funext fun (j : S2000x64.Idx) => ?_
  obtain ⟨p, q, rfl⟩ : ∃ (p : Fin 2000) (q : Fin 64), j = ix2 p q := ⟨j 0, j 1, eq_ix2 j⟩
  show k3_pay1 (iblk3 V c 0 t) (iblk3 V c 1 t) (ix2 p q)
    = Spec.addRow1 (V c main_v61) (V c main_v62) (((cfg3.win 2).blk t).view.emb (ix2 p q))
  refine (Pay.pay3 (iblk3 V c 0 t) (iblk3 V c 1 t) p q).trans ?_
  unfold Spec.addRow1
  have hq : ((((cfg3.win 2).blk t).view.emb (ix2 p q)) 1) = q := Fin.ext (by
    show win3_2.index t (1 : Fin 2) * 64 + 1 * q.val = q.val; omega)
  rw [in_apply V c t p q, row_apply V c t q, hq]

/-- An index of the output array is in point t's block iff each coordinate is in the block's range on its axis. -/
theorem mem_blk (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v63).slice (win3_2.rect t)).set ↔ _
  rw [View.set_slice_whole, Rect.mem_set_unit]
  exact Iff.rfl

/-- Row r of the output array is in the block of point r / 2000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 50 := N_3
  have ht : (i 0).val / 2000 < cfg3.N := by rw [hN]; omega
  obtain ⟨-, -, -, -, e20, e21⟩ := idx_facts ⟨(i 0).val / 2000, ht⟩
  refine ⟨⟨(i 0).val / 2000, ht⟩, flush3_2 _, ?_⟩
  rw [mem_blk]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win3_2.index ⟨(i 0).val / 2000, ht⟩ (1 : Fin 2) * 64 ≤ (i 1).val ∧ (i 1).val < win3_2.index ⟨(i 0).val / 2000, ht⟩ (1 : Fin 2) * 64 + 64
    rw [e21]; omega

/-- The output array after the region. -/
theorem final (c : Dev nD) : (dat3 V c).arrAt 2 cfg3.N = Spec.addRow1 (V c main_v61) (V c main_v62) :=
  (dat3 V c).arrAt_eq_of_cover 2 (Spec.addRow1 (V c main_v61) (V c main_v62)) (fun t _ => flushed_eq V c t) cover

end Cert.KernelIdeal.Reg3

end
-- ==== Proof.ChainC.lean ====
/-
  Layer two, as layer one without the clamp: the third kernel's output array is h · W2, the host stretch aggregates,
  the fourth kernel adds the bias row. So the fourth kernel's output array is the reference's node embedding.
-/
import proofs.«145329_j24653112279423_1_alg».proof.Proof.ChainB
import proofs.«145329_j24653112279423_1_alg».proof.Proof.Region2
import proofs.«145329_j24653112279423_1_alg».proof.Proof.Region3

set_option maxRecDepth 16384

noncomputable section

open scoped BigOperators

namespace Cert.KernelIdeal.Chain

open Cert.KernelIdeal Cert.KernelIdeal.Gen Cert.Bridge
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg)

/-! ## Layer two -/

/-- The third kernel's output array is h · W2. -/
theorem k48 (c : Dev nD) : W7 m ρ c (Proc.devRef .tc main_v48) = val_main_v50 (F := Ideal) (a0 m c) (a1 m c) (a2 m c) (a3 m c) (a4 m c) := by
  refine (W7_arr m ρ c 2).trans ?_
  refine (Reg2.final (V6 m ρ) c).trans ?_
  rw [Cert.ReferenceIdeal.Side.v50_eq]
  exact congrArg₂ Spec.mm (k47 m ρ c) (Keep.W6_arg4 m ρ c)

/-- The host stretch after it aggregates as in layer one. -/
theorem k61 (c : Dev nD) : W8 m ρ c (Proc.devRef .tc main_v61) = val_main_v63 (F := Ideal) (a0 m c) (a1 m c) (a2 m c) (a3 m c) (a4 m c) := by
  dsimp only [W8, hostOps3]
  after_results_simp
  rw [k48 m ρ c, Keep.W7_v31 m ρ c, Keep.W7_v3 m ρ c, Keep.W7_v6 m ρ c, k31 m ρ c, k3 m ρ c, k6 m ρ c]
  rfl

/-- The second bias, cast to one row. -/
theorem k62 (c : Dev nD) : W8 m ρ c (Proc.devRef .tc main_v62) = shapeCast S1x64 (a5 m c) shapeCasts_S64_S1x64 := by
  dsimp only [W8, hostOps3]
  after_results_simp
  rw [Keep.W7_arg5 m ρ c]
  rfl

/-- The fourth kernel's output array is the node embedding. -/
theorem k63 (c : Dev nD) : W9 m ρ c (Proc.devRef .tc main_v63) = val_main_v66 (F := Ideal) (a0 m c) (a1 m c) (a2 m c) (a3 m c) (a4 m c) (a5 m c) := by
  refine (W9_arr m ρ c 2).trans ?_
  refine (Reg3.final (V8 m ρ) c).trans ?_
  rw [Cert.ReferenceIdeal.Side.v66_eq]
  show Spec.addRow1 (W8 m ρ c (Proc.devRef .tc main_v61)) (W8 m ρ c (Proc.devRef .tc main_v62)) = _
  rw [k61 m ρ c, k62 m ρ c]
  exact Spec.addRow1_eq _ _ _ fun q => shapeCast_a_1a_apply (a5 m c) shapeCasts_S64_S1x64 (0 : Fin 1) q

end Cert.KernelIdeal.Chain

end
-- ==== Proof.Region4.lean ====
/-
  Kernel region 4 (the decoder, one block of 12800 edges per grid point): whatever the buffers hold when the region is
  entered, the output column ends holding, at (e, 0), the logistic of the inner product of row e of the two gathered
  arrays. Point t writes back rows 12800·t … 12800·t + 12799, computed from the same rows of the two inputs; the 125
  blocks tile the 1600000 rows.
-/
import proofs.«145329_j24653112279423_1_alg».proof.Proof.Gen.KernelIdeal.Frame
import proofs.«145329_j24653112279423_1_alg».proof.Proof.Payload
import proofs.«145329_j24653112279423_1_alg».proof.Proof.Spec
import Idealize.ShloMosaic.Lib.Pipeline.Value

set_option maxRecDepth 16384

noncomputable section

open scoped BigOperators

namespace Cert.KernelIdeal.Reg4

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The decoder's value as a column: entry (e, 0) is the decoded edge e. -/
def column (zs zd : S1600000x64.Idx → EReal) : S1600000x1.Idx → EReal :=
  fun i => Spec.decode zs zd (ix1 (i 0 : Fin 1600000))

/-- The block indices at point t: each window's block is row block t. Decided over the grid. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The first input's block at point t, at (p, k), is the array's entry (12800·t + p, k). -/
theorem src_apply (c : Dev nD) (t : Fin cfg4.N) (p : Fin 12800) (k : Fin 64) (r : Fin 1600000) (hr : r.val = t.val * 12800 + p.val) :
    (iblk4 V c 0 t : FVec Ideal S12800x64 .f32) (ix2 p k) = (V c main_v74 : S1600000x64.Idx → EReal) (ix2 r k) := by
  obtain ⟨e00, e01, -, -, -, -⟩ := idx_facts t
  unfold iblk4
  rw [View.read_apply]
  show V c main_v74 _ = V c main_v74 _
  refine congrArg (V c main_v74) (funext fun a => Fin.ext ?_)
  match a with
  | ⟨0, _⟩ => show win4_0.index t (0 : Fin 2) * 12800 + 1 * p.val = r.val; omega
  | ⟨1, _⟩ => show win4_0.index t (1 : Fin 2) * 64 + 1 * k.val = k.val; omega

/-- The second input's block at point t, at (p, k), is the array's entry (12800·t + p, k). -/
theorem dst_apply (c : Dev nD) (t : Fin cfg4.N) (p : Fin 12800) (k : Fin 64) (r : Fin 1600000) (hr : r.val = t.val * 12800 + p.val) :
    (iblk4 V c 1 t : FVec Ideal S12800x64 .f32) (ix2 p k) = (V c main_v81 : S1600000x64.Idx → EReal) (ix2 r k) := by
  obtain ⟨-, -, e10, e11, -, -⟩ := idx_facts t
  unfold iblk4
  rw [View.read_apply]
  show V c main_v81 _ = V c main_v81 _
  refine congrArg (V c main_v81) (funext fun a => Fin.ext ?_)
  match a with
  | ⟨0, _⟩ => show win4_1.index t (0 : Fin 2) * 12800 + 1 * p.val = r.val; omega
  | ⟨1, _⟩ => show win4_1.index t (1 : Fin 2) * 64 + 1 * k.val = k.val; omega

/-- What point t writes back is block t of the decoded column. -/
theorem flushed_eq (c : Dev nD) (t : Fin cfg4.N) :
    (dat4 V c).flushed 2 t = ((cfg4.win 2).blk t).view.read (Elt Ideal) (column (V c main_v74) (V c main_v81)) := by
  show (cfg4.win 2).cut (grid4.coords t) ((dat4 V c).after 2 t) = _
  rw [after4_2]
  unfold out4_2
  rw [View.canon_unit_zero hz]
  simp only [View.ld_unit_zero (S := S12800x64) hz]
  obtain ⟨-, -, -, -, e20, e21⟩ := idx_facts t
  refine funext fun (j : S12800x1.Idx) => ?_
  obtain ⟨p, q, rfl⟩ : ∃ (p : Fin 12800) (q : Fin 1), j = ix2 p q := ⟨j 0, j 1, eq_ix2 j⟩
  obtain rfl : q = 0 := Subsingleton.elim _ _
  show k4_pay1 (iblk4 V c 0 t) (iblk4 V c 1 t) (ix2 p (0 : Fin 1))
    = column (V c main_v74) (V c main_v81) (((cfg4.win 2).blk t).view.emb (ix2 p (0 : Fin 1)))
  refine (Pay.pay4 (iblk4 V c 0 t) (iblk4 V c 1 t) p).trans ?_
  unfold column Spec.decode
  refine congrArg Ideal.logistic (Finset.sum_congr rfl fun k _ => ?_)
  have hr : ((((cfg4.win 2).blk t).view.emb (ix2 p (0 : Fin 1))) 0).val = t.val * 12800 + p.val := by
    show win4_2.index t (0 : Fin 2) * 12800 + 1 * p.val = _; omega
  rw [src_apply V c t p k _ hr, dst_apply V c t p k _ hr]

/-- An index of the output array is in point t's block iff each coordinate is in the block's range on its axis. -/
theorem mem_blk (t : Fin cfg4.N) (i : S1600000x1.Idx) :
    i ∈ ((cfg4.win 2).blk t).view.set ↔ ∀ a : Fin 2, win4_2.index t a * S12800x1.size a ≤ (i a).val ∧ (i a).val < win4_2.index t a * S12800x1.size a + S12800x1.size a := by
  show i ∈ ((View.whole main_v82).slice (win4_2.rect t)).set ↔ _
  rw [View.set_slice_whole, Rect.mem_set_unit]
  exact Iff.rfl

/-- Row e of the output column is in the block of point e / 12800. -/
theorem cover (i : S1600000x1.Idx) : ∃ t : Fin cfg4.N, (cfg4.win 2).flush t = true ∧ i ∈ ((cfg4.win 2).blk t).view.set := by
  have hi0 : (i 0).val < 1600000 := (i 0).isLt
  have hi1 : (i 1).val < 1 := (i 1).isLt
  have hN : cfg4.N = 125 := N_4
  have ht : (i 0).val / 12800 < cfg4.N := by rw [hN]; omega
  obtain ⟨-, -, -, -, e20, e21⟩ := idx_facts ⟨(i 0).val / 12800, ht⟩
  refine ⟨⟨(i 0).val / 12800, ht⟩, flush4_2 _, ?_⟩
  rw [mem_blk]
  intro a
  match a with
  | ⟨0, _⟩ =>
    show win4_2.index ⟨(i 0).val / 12800, ht⟩ (0 : Fin 2) * 12800 ≤ (i 0).val ∧ (i 0).val < win4_2.index ⟨(i 0).val / 12800, ht⟩ (0 : Fin 2) * 12800 + 12800
    rw [e20]; show (i 0).val / 12800 * 12800 ≤ (i 0).val ∧ (i 0).val < (i 0).val / 12800 * 12800 + 12800; omega
  | ⟨1, _⟩ =>
    show win4_2.index ⟨(i 0).val / 12800, ht⟩ (1 : Fin 2) * 1 ≤ (i 1).val ∧ (i 1).val < win4_2.index ⟨(i 0).val / 12800, ht⟩ (1 : Fin 2) * 1 + 1
    rw [e21]; omega

/-- The output column after the region. -/
theorem final (c : Dev nD) : (dat4 V c).arrAt 2 cfg4.N = column (V c main_v74) (V c main_v81) :=
  (dat4 V c).arrAt_eq_of_cover 2 (column (V c main_v74) (V c main_v81)) (fun t _ => flushed_eq V c t) cover

end Cert.KernelIdeal.Reg4

end
-- ==== Proof.ChainD.lean ====
/-
  The decoder: the host gathers the embedding's rows by each edge's source and target, the fifth kernel takes the
  logistic of the rows' inner products into a column, and the last host operation casts the column to a vector: the
  reference's result.
-/
import proofs.«145329_j24653112279423_1_alg».proof.Proof.ChainC
import proofs.«145329_j24653112279423_1_alg».proof.Proof.Region4

set_option maxRecDepth 16384

noncomputable section

open scoped BigOperators

namespace Cert.KernelIdeal.Chain

open Cert.KernelIdeal Cert.KernelIdeal.Gen Cert.Bridge
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg)

/-! ## The decoder -/

/-- The embedding's rows gathered by the edges' sources. -/
theorem k74 (c : Dev nD) : W10 m ρ c (Proc.devRef .tc main_v74) = val_main_v77 (F := Ideal) (a0 m c) (a1 m c) (a2 m c) (a3 m c) (a4 m c) (a5 m c) := by
  dsimp only [W10, hostOps4]
  after_results_simp
  rw [k63 m ρ c, Keep.W9_arg1 m ρ c]
  rfl

/-- The embedding's rows gathered by the edges' targets. -/
theorem k81 (c : Dev nD) : W10 m ρ c (Proc.devRef .tc main_v81) = val_main_v84 (F := Ideal) (a0 m c) (a1 m c) (a2 m c) (a3 m c) (a4 m c) (a5 m c) := by
  dsimp only [W10, hostOps4]
  after_results_simp
  rw [k63 m ρ c, Keep.W9_arg1 m ρ c]
  rfl

/-- The fifth kernel's output column. -/
theorem k82 (c : Dev nD) : W11 m ρ c (Proc.devRef .tc main_v82)
    = Reg4.column (val_main_v77 (F := Ideal) (a0 m c) (a1 m c) (a2 m c) (a3 m c) (a4 m c) (a5 m c)) (val_main_v84 (F := Ideal) (a0 m c) (a1 m c) (a2 m c) (a3 m c) (a4 m c) (a5 m c)) := by
  refine (W11_arr m ρ c 2).trans ?_
  refine (Reg4.final (V10 m ρ) c).trans ?_
  exact congrArg₂ Reg4.column (k74 m ρ c) (k81 m ρ c)

/-- The column cast to a vector: entry e is the decoded edge e — the reference's result. -/
theorem k83 (c : Dev nD) : W12 m ρ c (Proc.devRef .tc main_v83)
    = val_main_v92 (F := Ideal) (a0 m c) (a1 m c) (a2 m c) (a3 m c) (a4 m c) (a5 m c) := by
  dsimp only [W12, hostOps5]
  after_results_simp
  rw [k82 m ρ c, Cert.ReferenceIdeal.Side.v92_eq]
  funext i
  refine (shapeCast_apply _ shapeCasts_S1600000x1_S1600000 i (ix2 (i 0 : Fin 1600000) (0 : Fin 1)) ?_).trans ?_
  · rw [Shape.rowMajor_val_two, Shape.rowMajor_val_one]
    show (i 0).val * 1 + 0 = (i 0).val
    omega
  · rfl

end Cert.KernelIdeal.Chain

end
-- ==== Proof.lean ====
/-
  A two-layer graph convolution with an inner-product decoder: five kernels (two matrix products, two bias stages, the
  decoder) among host operations (degree normalisation, row gathers, scatter-adds), against the same network written in
  plain host operations. On the extended reals every kernel computes the whole-array function of the reference's stage
  of the same name — the product into a zero accumulator is the product, the change to bf16 the identity, the lane sum
  the sum from a zero initial value, the logistic one over one plus the exponential of the negation — and the host
  operations between kernels are the reference's own, applied to equal operands; no law beyond 0 + x = x and the
  reading of the float words for zero and one is used, so the inputs' finiteness is never opened. The three frames are
  the generated frame runs (the reference's: its run with the result dropped); the idealization rewrote nothing.
-/
import proofs.«145329_j24653112279423_1_alg».proof.Defs
import proofs.«145329_j24653112279423_1_alg».proof.Proof.Gen.Kernel
import proofs.«145329_j24653112279423_1_alg».proof.Proof.Gen.Kernel.Frame
import proofs.«145329_j24653112279423_1_alg».proof.Proof.Gen.KernelIdeal
import proofs.«145329_j24653112279423_1_alg».proof.Proof.Gen.KernelIdeal.Frame
import proofs.«145329_j24653112279423_1_alg».proof.Proof.Gen.ReferenceIdeal
import proofs.«145329_j24653112279423_1_alg».proof.Proof.Gen.Pre_finite_inputs
import proofs.«145329_j24653112279423_1_alg».proof.Proof.KRun
import proofs.«145329_j24653112279423_1_alg».proof.Proof.ChainD
import proofs.«145329_j24653112279423_1_alg».proof.Proof.RefRun
import proofs.«145329_j24653112279423_1_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result at the reference's last stage of the (agreeing) arguments. -/
theorem algebraic : Cert.algebraic_KernelIdeal_ReferenceIdeal := by
  intro m ρ m' ρ' _ hagree
  refine ⟨fun c => Cert.ReferenceIdeal.ReadP.val_main_v92 (F := Ideal) (Cert.KernelIdeal.Chain.a0 m c) (Cert.KernelIdeal.Chain.a1 m c)
    (Cert.KernelIdeal.Chain.a2 m c) (Cert.KernelIdeal.Chain.a3 m c) (Cert.KernelIdeal.Chain.a4 m c) (Cert.KernelIdeal.Chain.a5 m c), ?_, ?_⟩
  · exact (θ_run Cert.KernelIdeal.defs _ _).mono (fun _ h c => ⟨(h c).1.trans (Cert.KernelIdeal.Chain.k83 m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v92_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
